-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S5000x128 : Shape := ⟨2, ![5000, 128]⟩
abbrev S1x128 : Shape := ⟨2, ![1, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 42
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000x128, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S100000x128, .f32⟩
  | .hbm, ⟨26, _⟩ => ⟨S1600000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S1600000x128, .f32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1x128 : Shape := ⟨2, ![1, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 51
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S1600000x1, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S1600000x1, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S1600000x128, .f32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The kernel program's run with its result kept. The program is two pipelined regions between two stretches of host
  operations; the contents of every buffer at each boundary are a fold from the launch memory: region 0 leaves its
  output array at what its twenty write-backs fold to, the first host stretch applies its operations to that, region 1
  the same, the second host stretch again. Every weakly fair execution terminates, and the final memory is read
  against the last boundary's contents: the result buffer holds that fold's value, and each argument array — which no
  region and no host operation writes — holds what it held at launch.
-/
import proofs.«124054_j77644418777151_1_alg».proof.Proof.Gen.KernelIdeal.Frame

set_option maxRecDepth 16384

noncomputable section

namespace Cert.KernelIdeal.RunResult

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program terminates without a fault; the
    result buffer ends at the last boundary's contents and the eight argument arrays end as launched. -/
theorem run_result : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunResult

end
-- ==== Proof.Layer.lean ====
/-
  The two dense layers of the network as functions of whole arrays, read at an index.

  An affine layer sends a matrix X (M rows of 128 features), a weight matrix W (128 by 128) and a bias b (128 entries)
  to the matrix whose entry (p, q) is the sum over k of X[p, k] · W[k, q], plus b[q]. The rectifier sends every entry
  to its maximum with zero. Both are stated on the extended reals; no finiteness is assumed anywhere, because the two
  programs compared compute these very sums term by term and nothing is rearranged beyond the order of one finite sum.
-/
import Idealize.ShloMosaic.PureOps.Ideal
import Idealize.ShloMosaic.Lib.ValueIdx

noncomputable section

open scoped BigOperators

namespace Cert.Bridge.Layer

open Idealize.ShloMosaic Idealize.ShloMosaic.ValueIdx

/-- The affine layer: entry (p, q) is the inner product of row p of `X` with column q of `W`, plus `b` at q. -/
def affine {M : Nat} (X : FVec Ideal ⟨2, ![M, 128]⟩ .f32) (W : FVec Ideal ⟨2, ![128, 128]⟩ .f32)
    (b : FVec Ideal ⟨1, ![128]⟩ .f32) : FVec Ideal ⟨2, ![M, 128]⟩ .f32 :=
  fun i => (∑ k : Fin 128, X (ix2 (i 0) k) * W (ix2 k (i 1))) + b (ix1 (i 1))

/-- The rectifier, entry by entry: the maximum with the zero word's value. -/
def relu {s : Shape} (H : FVec Ideal s .f32) : FVec Ideal s .f32 :=
  fun j => max (H j) (Ideal.ofBits .f32 0x00000000#32)

theorem affine_apply {M : Nat} (X : FVec Ideal ⟨2, ![M, 128]⟩ .f32) (W : FVec Ideal ⟨2, ![128, 128]⟩ .f32)
    (b : FVec Ideal ⟨1, ![128]⟩ .f32) (p : Fin M) (q : Fin 128) :
    affine X W b (ix2 p q) = (∑ k : Fin 128, X (ix2 p k) * W (ix2 k q)) + b (ix1 q) := rfl

theorem relu_apply {s : Shape} (H : FVec Ideal s .f32) (j : s.Idx) :
    relu H j = max (H j) (Ideal.ofBits .f32 0x00000000#32) := rfl

end Cert.Bridge.Layer

end
-- ==== Proof.HostChain.lean ====
/-
  The sparse product both host stretches of the kernel program compute. With the edge list (rows, cols, vals) of a
  sparse matrix and a dense matrix Z it gathers row cols[e] of Z for every edge e (a negative column index first
  wrapped by the number of rows), scales it by vals[e], and adds it into row rows[e] of a zero matrix. It is named
  here as ONE function and never opened: the certificate only needs that both programs apply it to equal arguments.

  Then the buffer contents at the kernel program's boundaries, read through the fold: after the first stretch the
  rectifier layer's operand holds the sparse product of region 0's output array; after the second the result buffer
  holds the sparse product of region 1's output array; and the arguments read back to the launch memory at every
  boundary, since no region and no host operation writes them.
-/
import proofs.«124054_j77644418777151_1_alg».proof.Proof.Gen.KernelIdeal.Frame
import Idealize.ShloMosaic.Lib.StableHlo.Run

set_option maxRecDepth 16384

noncomputable section

namespace Cert.KernelIdeal.HostChain

open Idealize.ShloMosaic Idealize.ShloMosaic.TcCoe Idealize.SL.Sem Idealize.ShloMosaic.StableHlo
open Cert.KernelIdeal Cert.KernelIdeal.Gen

variable {F : FTy → Type} [FloatOps F]

/-- The sparse product of the edge list `(rows, cols, vals)` with the dense matrix `Z`. -/
def spmm (rows cols : IVec S1600000 32) (vals : FVec F S1600000 .f32) (Z : FVec F S100000x128 .f32) :
    FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 rows)
    (mulf (broadcastInDim S1600000x128 ![0, 1] bcast_S1600000x1_S1600000x128_0_1 (broadcastInDim S1600000x1 ![0] bcast_S1600000_S1600000x1_0 vals))
      (Host.gather gather_S100000x128_S1600000x1_S1600000x128_1_0_n_n_0_1_1128 Z
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols))))

variable (m : (ℓ : Loc nD τ sig) → Buf (Elt F) ℓ) (ρ : Dev nD → PrngReg)

/-- After the first host stretch, the buffer region 1 reads holds the sparse product of region 0's output array. -/
theorem first_stretch (c : Dev nD) :
    W2 m ρ c (Proc.devRef .tc main_v13)
      = spmm (W1 m ρ c (Proc.devRef .tc main_arg1)) (W1 m ρ c (Proc.devRef .tc main_arg2)) (W1 m ρ c (Proc.devRef .tc main_arg3))
          (W1 m ρ c (Proc.devRef .tc main_v0)) := by
  show StableHlo.after hostOps1 (W1 m ρ c) (Proc.devRef .tc main_v13) = _
  after_results
  rfl

/-- After the second host stretch, the result buffer holds the sparse product of region 1's output array. -/
theorem second_stretch (c : Dev nD) :
    W4 m ρ c (Proc.devRef .tc main_v27)
      = spmm (W3 m ρ c (Proc.devRef .tc main_arg1)) (W3 m ρ c (Proc.devRef .tc main_arg2)) (W3 m ρ c (Proc.devRef .tc main_arg3))
          (W3 m ρ c (Proc.devRef .tc main_v14)) := by
  show StableHlo.after hostOps2 (W3 m ρ c) (Proc.devRef .tc main_v27) = _
  after_results
  rfl

end Cert.KernelIdeal.HostChain

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.RegionArrays.lean ====
/-
  What each of the two kernel regions leaves in its output array, as one function of the arrays the region finds on
  entry. Region 0 tiles the 100000 rows into 20 blocks of 5000; on block t it multiplies rows [5000 t, 5000 t + 5000)
  of its first operand by the whole weight matrix and adds the whole bias, so the array it leaves is the affine layer
  of its three operands. Region 1 does the same after rectifying its first operand's block entry by entry, and the
  rectifier of a block is the block of the rectified array.
-/
import proofs.«124054_j77644418777151_1_alg».proof.Proof.Gen.KernelIdeal.Frame
import proofs.«124054_j77644418777151_1_alg».proof.Proof.Layer
import proofs.«124054_j77644418777151_1_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionArrays

open Idealize.ShloMosaic Idealize.ShloMosaic.TcCoe Idealize.ShloMosaic.ValueIdx Idealize.SL.Sem
open Cert.KernelIdeal Cert.KernelIdeal.Gen Cert.Bridge

/-! ## The two stored values at an index -/

/-- Region 0's stored value at row p, column q: the inner product of row p of the first block with column q of the
    weights, plus the bias at q. -/
theorem linear_payload (x0 : Vec Ideal S5000x128 .f32) (x1 : Vec Ideal S128x128 .f32) (x2 : Vec Ideal S128 .f32)
    (p : Fin 5000) (q : Fin 128) :
    k0_pay1 (F := Ideal) x0 x1 x2 (ix2 p q) = (∑ k : Fin 128, x0 (ix2 p k) * x1 (ix2 k q)) + x2 (ix1 q) := by
  unfold k0_pay1
  refine (addf_apply _ _ _).trans ?_
  congr 1
  · exact LibMatmul.matmul_zero_apply (M := 5000) (K := 128) (N := 128) none _ _ p q
  · exact (broadcastTo_1b_ab_apply _ _ p q).trans (shapeCast_a_1a_apply x2 _ 0 q)

/-- Region 1's stored value at row p, column q: as region 0's, with the first block rectified entry by entry. -/
theorem relu_linear_payload (x0 : Vec Ideal S5000x128 .f32) (x1 : Vec Ideal S128x128 .f32) (x2 : Vec Ideal S128 .f32)
    (p : Fin 5000) (q : Fin 128) :
    k1_pay1 (F := Ideal) x0 x1 x2 (ix2 p q)
      = (∑ k : Fin 128, max (x0 (ix2 p k)) (Ideal.ofBits .f32 0x00000000#32) * x1 (ix2 k q)) + x2 (ix1 q) := by
  unfold k1_pay1
  refine (addf_apply _ _ _).trans ?_
  congr 1
  · refine (LibMatmul.matmul_zero_apply (M := 5000) (K := 128) (N := 128) none _ _ p q).trans ?_
    refine Finset.sum_congr rfl fun k _ => ?_
    congr 1
    exact congrArg (fun v => max (v (ix2 p k)) (Ideal.ofBits .f32 0x00000000#32))
      (shapeCast_self x0 shapeCasts_S5000x128_S5000x128)
  · exact (broadcastTo_1b_ab_apply _ _ p q).trans (shapeCast_a_1a_apply x2 _ 0 q)

variable (V : (c : Dev nD) → (b : Ref sig .tc) → Buf (Elt Ideal) ((c : Thread nD τ).loc b))

/-- The offsets of a whole-block access, on two axes and on one, are all zero. -/
theorem zero_offsets2 : (![0, 0] : Fin 2 → Nat) = fun _ => 0 := funext fun a => by fin_cases a <;> rfl
theorem zero_offsets1 : (![0] : Fin 1 → Nat) = fun _ => 0 := funext fun a => by fin_cases a; rfl

/-! ## Region 0: from the blocks to the array -/

/-- Region 0's block indices at grid point t, decided over the twenty points: the first operand and the output are at
    block row t, block column 0; the weights and the bias are always at block 0. -/
theorem linear_block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ t.val < 20 :=
  (by decide +kernel : ∀ t : Fin grid0.N, _)

/-- Entry (p, k) of the first operand's block at point t is entry (5000 t + p, k) of the array. -/
theorem linear_block_x (c : Dev nD) (t : Fin cfg0.N) (p : Fin 5000) (k : Fin 128) (r : Fin 100000)
    (hr : r.val = 5000 * t.val + p.val) :
    (iblk0 V c 0 t : Vec Ideal S5000x128 .f32) (ix2 p k) = (V c main_arg0 : FVec Ideal S100000x128 .f32) (ix2 r k) := by
  obtain ⟨e0, e1, -⟩ := linear_block_index t
  unfold iblk0
  rw [View.read_apply]
  show V c main_arg0 (((cfg0.win 0).blk t).view.emb (ix2 p k)) = V c main_arg0 (ix2 r k)
  congr 1
  funext a
  apply Fin.ext
  match a with
  | ⟨0, _⟩ => show win0_0.index t (0 : Fin 2) * 5000 + 1 * p.val = r.val; omega
  | ⟨1, _⟩ => show win0_0.index t (1 : Fin 2) * 128 + 1 * k.val = k.val; omega

/-- The weights' block at every point is the whole matrix. -/
theorem linear_block_w (c : Dev nD) (t : Fin cfg0.N) (k q : Fin 128) :
    (iblk0 V c 1 t : Vec Ideal S128x128 .f32) (ix2 k q) = (V c main_arg4 : FVec Ideal S128x128 .f32) (ix2 k q) := by
  obtain ⟨-, -, e0, e1, -⟩ := linear_block_index t
  unfold iblk0
  rw [View.read_apply]
  show V c main_arg4 (((cfg0.win 1).blk t).view.emb (ix2 k q)) = V c main_arg4 (ix2 k q)
  congr 1
  funext a
  apply Fin.ext
  match a with
  | ⟨0, _⟩ => show win0_1.index t (0 : Fin 2) * 128 + 1 * k.val = k.val; omega
  | ⟨1, _⟩ => show win0_1.index t (1 : Fin 2) * 128 + 1 * q.val = q.val; omega

/-- The bias's block at every point is the whole vector. -/
theorem linear_block_b (c : Dev nD) (t : Fin cfg0.N) (q : Fin 128) :
    (iblk0 V c 2 t : Vec Ideal S128 .f32) (ix1 q) = (V c main_arg5 : FVec Ideal S128 .f32) (ix1 q) := by
  obtain ⟨-, -, -, -, e0, -⟩ := linear_block_index t
  unfold iblk0
  rw [View.read_apply]
  show V c main_arg5 (((cfg0.win 2).blk t).view.emb (ix1 q)) = V c main_arg5 (ix1 q)
  congr 1
  funext a
  apply Fin.ext
  match a with
  | ⟨0, _⟩ => show win0_2.index t (0 : Fin 1) * 128 + 1 * q.val = q.val; omega

/-- Entry (p, q) of the output's block at point t sits at (5000 t + p, q) in the array. -/
theorem linear_block_out (t : Fin cfg0.N) (p : Fin 5000) (q : Fin 128) (r : Fin 100000)
    (hr : r.val = 5000 * t.val + p.val) :
    ((cfg0.win 3).blk t).view.emb (ix2 p q) = (ix2 r q : S100000x128.Idx) := by
  obtain ⟨-, -, -, -, -, e0, e1, -⟩ := linear_block_index t
  funext a
  apply Fin.ext
  match a with
  | ⟨0, _⟩ => show win0_3.index t (0 : Fin 2) * 5000 + 1 * p.val = r.val; omega
  | ⟨1, _⟩ => show win0_3.index t (1 : Fin 2) * 128 + 1 * q.val = q.val; omega

/-- What point t writes back is block t of the affine layer of the three arrays region 0 reads. -/
theorem linear_flushed (c : Dev nD) (t : Fin cfg0.N) :
    (dat0 (F := Ideal) V c).flushed 3 t
      = ((cfg0.win 3).blk t).view.read (Elt Ideal) (Layer.affine (V c main_arg0) (V c main_arg4) (V c main_arg5)) := by
  show (cfg0.win 3).cut (grid0.coords t) ((dat0 V c).after 3 t) = _
  rw [after0_3]
  unfold out0_3
  rw [View.canon_unit_zero zero_offsets2]
  simp only [View.ld_unit_zero (S := S5000x128) zero_offsets2, View.ld_unit_zero (S := S128x128) zero_offsets2,
    View.ld_unit_zero (S := S128) zero_offsets1]
  funext j
  obtain ⟨p, q, rfl⟩ : ∃ (p : Fin 5000) (q : Fin 128), j = ix2 p q := ⟨j 0, j 1, eq_ix2 j⟩
  have ht : t.val < 20 := (linear_block_index t).2.2.2.2.2.2.2
  rw [View.read_apply, linear_block_out t p q ⟨5000 * t.val + p.val, by omega⟩ rfl, Layer.affine_apply]
  refine (linear_payload (iblk0 V c 0 t) (iblk0 V c 1 t) (iblk0 V c 2 t) p q).trans ?_
  congr 1
  · refine Finset.sum_congr rfl fun k _ => ?_
    rw [linear_block_x V c t p k ⟨5000 * t.val + p.val, by omega⟩ rfl, linear_block_w V c t k q]
  · exact linear_block_b V c t q

/-- An index of the output array is in point t's block iff each coordinate is in the block's range on its axis. -/
theorem linear_mem_block (t : Fin cfg0.N) (i : S100000x128.Idx) :
    i ∈ ((cfg0.win 3).blk t).view.set
      ↔ ∀ a : Fin 2, win0_3.index t a * S5000x128.size a ≤ (i a).val
          ∧ (i a).val < win0_3.index t a * S5000x128.size a + S5000x128.size a := by
  show i ∈ ((View.whole main_v0).slice (win0_3.rect t)).set ↔ _
  rw [View.set_slice_whole, Rect.mem_set_unit]
  exact Iff.rfl

/-- Every row of the output array lies in some point's block: row r in that of point r / 5000. -/
theorem linear_cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_3 _, ?_⟩
  rw [linear_mem_block]
  obtain ⟨-, -, -, -, -, e0, e1, -⟩ := linear_block_index ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e0]
    show (i 0).val / 5000 * 5000 ≤ (i 0).val ∧ (i 0).val < (i 0).val / 5000 * 5000 + 5000
    omega
  | ⟨1, _⟩ =>
    show win0_3.index _ (1 : Fin 2) * 128 ≤ (i 1).val ∧ (i 1).val < win0_3.index _ (1 : Fin 2) * 128 + 128
    rw [e1]
    omega

/-- Region 0's output array after its last grid point: the affine layer of the three arrays it reads. -/
theorem linear_array (c : Dev nD) :
    (dat0 (F := Ideal) V c).arrAt 3 cfg0.N = Layer.affine (V c main_arg0) (V c main_arg4) (V c main_arg5) := by
  exact (dat0 V c).arrAt_eq_of_cover 3 (Layer.affine (V c main_arg0) (V c main_arg4) (V c main_arg5))
    (fun t _ => linear_flushed V c t) linear_cover

/-! ## Region 1: from the blocks to the array -/

/-- Region 1's block indices at grid point t, decided over the twenty points: the first operand and the output are at
    block row t, block column 0; the weights and the bias are always at block 0. -/
theorem relu_linear_block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0
    ∧ t.val < 20 :=
  (by decide +kernel : ∀ t : Fin grid1.N, _)

/-- Entry (p, k) of the first operand's block at point t is entry (5000 t + p, k) of the array. -/
theorem relu_linear_block_x (c : Dev nD) (t : Fin cfg1.N) (p : Fin 5000) (k : Fin 128) (r : Fin 100000)
    (hr : r.val = 5000 * t.val + p.val) :
    (iblk1 V c 0 t : Vec Ideal S5000x128 .f32) (ix2 p k) = (V c main_v13 : FVec Ideal S100000x128 .f32) (ix2 r k) := by
  obtain ⟨e0, e1, -⟩ := relu_linear_block_index t
  unfold iblk1
  rw [View.read_apply]
  show V c main_v13 (((cfg1.win 0).blk t).view.emb (ix2 p k)) = V c main_v13 (ix2 r k)
  congr 1
  funext a
  apply Fin.ext
  match a with
  | ⟨0, _⟩ => show win1_0.index t (0 : Fin 2) * 5000 + 1 * p.val = r.val; omega
  | ⟨1, _⟩ => show win1_0.index t (1 : Fin 2) * 128 + 1 * k.val = k.val; omega

/-- The weights' block at every point is the whole matrix. -/
theorem relu_linear_block_w (c : Dev nD) (t : Fin cfg1.N) (k q : Fin 128) :
    (iblk1 V c 1 t : Vec Ideal S128x128 .f32) (ix2 k q) = (V c main_arg6 : FVec Ideal S128x128 .f32) (ix2 k q) := by
  obtain ⟨-, -, e0, e1, -⟩ := relu_linear_block_index t
  unfold iblk1
  rw [View.read_apply]
  show V c main_arg6 (((cfg1.win 1).blk t).view.emb (ix2 k q)) = V c main_arg6 (ix2 k q)
  congr 1
  funext a
  apply Fin.ext
  match a with
  | ⟨0, _⟩ => show win1_1.index t (0 : Fin 2) * 128 + 1 * k.val = k.val; omega
  | ⟨1, _⟩ => show win1_1.index t (1 : Fin 2) * 128 + 1 * q.val = q.val; omega

/-- The bias's block at every point is the whole vector. -/
theorem relu_linear_block_b (c : Dev nD) (t : Fin cfg1.N) (q : Fin 128) :
    (iblk1 V c 2 t : Vec Ideal S128 .f32) (ix1 q) = (V c main_arg7 : FVec Ideal S128 .f32) (ix1 q) := by
  obtain ⟨-, -, -, -, e0, -⟩ := relu_linear_block_index t
  unfold iblk1
  rw [View.read_apply]
  show V c main_arg7 (((cfg1.win 2).blk t).view.emb (ix1 q)) = V c main_arg7 (ix1 q)
  congr 1
  funext a
  apply Fin.ext
  match a with
  | ⟨0, _⟩ => show win1_2.index t (0 : Fin 1) * 128 + 1 * q.val = q.val; omega

/-- Entry (p, q) of the output's block at point t sits at (5000 t + p, q) in the array. -/
theorem relu_linear_block_out (t : Fin cfg1.N) (p : Fin 5000) (q : Fin 128) (r : Fin 100000)
    (hr : r.val = 5000 * t.val + p.val) :
    ((cfg1.win 3).blk t).view.emb (ix2 p q) = (ix2 r q : S100000x128.Idx) := by
  obtain ⟨-, -, -, -, -, e0, e1, -⟩ := relu_linear_block_index t
  funext a
  apply Fin.ext
  match a with
  | ⟨0, _⟩ => show win1_3.index t (0 : Fin 2) * 5000 + 1 * p.val = r.val; omega
  | ⟨1, _⟩ => show win1_3.index t (1 : Fin 2) * 128 + 1 * q.val = q.val; omega

/-- What point t writes back is block t of the affine layer of the rectified first operand: the rectifier acts entry
    by entry, so rectifying a block of the array is taking that block of the rectified array. -/
theorem relu_linear_flushed (c : Dev nD) (t : Fin cfg1.N) :
    (dat1 (F := Ideal) V c).flushed 3 t
      = ((cfg1.win 3).blk t).view.read (Elt Ideal)
          (Layer.affine (Layer.relu (V c main_v13)) (V c main_arg6) (V c main_arg7)) := by
  show (cfg1.win 3).cut (grid1.coords t) ((dat1 V c).after 3 t) = _
  rw [after1_3]
  unfold out1_3
  rw [View.canon_unit_zero zero_offsets2]
  simp only [View.ld_unit_zero (S := S5000x128) zero_offsets2, View.ld_unit_zero (S := S128x128) zero_offsets2,
    View.ld_unit_zero (S := S128) zero_offsets1]
  funext j
  obtain ⟨p, q, rfl⟩ : ∃ (p : Fin 5000) (q : Fin 128), j = ix2 p q := ⟨j 0, j 1, eq_ix2 j⟩
  have ht : t.val < 20 := (relu_linear_block_index t).2.2.2.2.2.2.2
  rw [View.read_apply, relu_linear_block_out t p q ⟨5000 * t.val + p.val, by omega⟩ rfl, Layer.affine_apply]
  refine (relu_linear_payload (iblk1 V c 0 t) (iblk1 V c 1 t) (iblk1 V c 2 t) p q).trans ?_
  congr 1
  · refine Finset.sum_congr rfl fun k _ => ?_
    rw [relu_linear_block_x V c t p k ⟨5000 * t.val + p.val, by omega⟩ rfl, relu_linear_block_w V c t k q,
      Layer.relu_apply]
  · exact relu_linear_block_b V c t q

/-- An index of the output array is in point t's block iff each coordinate is in the block's range on its axis. -/
theorem relu_linear_mem_block (t : Fin cfg1.N) (i : S100000x128.Idx) :
    i ∈ ((cfg1.win 3).blk t).view.set
      ↔ ∀ a : Fin 2, win1_3.index t a * S5000x128.size a ≤ (i a).val
          ∧ (i a).val < win1_3.index t a * S5000x128.size a + S5000x128.size a := by
  show i ∈ ((View.whole main_v14).slice (win1_3.rect t)).set ↔ _
  rw [View.set_slice_whole, Rect.mem_set_unit]
  exact Iff.rfl

/-- Every row of the output array lies in some point's block: row r in that of point r / 5000. -/
theorem relu_linear_cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_3 _, ?_⟩
  rw [relu_linear_mem_block]
  obtain ⟨-, -, -, -, -, e0, e1, -⟩ := relu_linear_block_index ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e0]
    show (i 0).val / 5000 * 5000 ≤ (i 0).val ∧ (i 0).val < (i 0).val / 5000 * 5000 + 5000
    omega
  | ⟨1, _⟩ =>
    show win1_3.index _ (1 : Fin 2) * 128 ≤ (i 1).val ∧ (i 1).val < win1_3.index _ (1 : Fin 2) * 128 + 128
    rw [e1]
    omega

/-- Region 1's output array after its last grid point: the affine layer of its rectified first operand. -/
theorem relu_linear_array (c : Dev nD) :
    (dat1 (F := Ideal) V c).arrAt 3 cfg1.N = Layer.affine (Layer.relu (V c main_v13)) (V c main_arg6) (V c main_arg7) := by
  exact (dat1 V c).arrAt_eq_of_cover 3 (Layer.affine (Layer.relu (V c main_v13)) (V c main_arg6) (V c main_arg7))
    (fun t _ => relu_linear_flushed V c t) relu_linear_cover

end Cert.KernelIdeal.RegionArrays

end
-- ==== Proof.KernelValue.lean ====
/-
  The kernel program's result as ONE function of its eight arguments: the sparse product of the second dense layer,
  applied to the rectified sparse product of the first dense layer. Read off the boundary contents: region 0's
  output array is the affine layer of the launch contents of X, the first weights and the first bias; the first host
  stretch takes its sparse product; region 1's output array is the affine layer of the rectifier of that with the
  second weights and bias; the second host stretch takes the sparse product again. The edge list and the second
  layer's parameters are read at later boundaries, where they still hold their launch contents.
-/
import proofs.«124054_j77644418777151_1_alg».proof.Proof.Gen.KernelIdeal.Frame
import proofs.«124054_j77644418777151_1_alg».proof.Proof.Layer
import proofs.«124054_j77644418777151_1_alg».proof.Proof.HostChain
import proofs.«124054_j77644418777151_1_alg».proof.Proof.RegionArrays

set_option maxRecDepth 16384

noncomputable section

namespace Cert.KernelIdeal.Result

open Idealize.ShloMosaic Idealize.ShloMosaic.TcCoe Idealize.SL.Sem Idealize.ShloMosaic.StableHlo
open Cert.KernelIdeal Cert.KernelIdeal.Gen Cert.Bridge

/-- Two rounds of "dense layer, then sparse product", a rectifier between them. -/
def network (X : FVec Ideal S100000x128 .f32) (rows cols : IVec S1600000 32) (vals : FVec Ideal S1600000 .f32)
    (Wa : FVec Ideal S128x128 .f32) (ba : FVec Ideal S128 .f32) (Wb : FVec Ideal S128x128 .f32) (bb : FVec Ideal S128 .f32) :
    FVec Ideal S100000x128 .f32 :=
  HostChain.spmm rows cols vals (Layer.affine (Layer.relu (HostChain.spmm rows cols vals (Layer.affine X Wa ba))) Wb bb)

variable (m : (ℓ : Loc nD τ sig) → Buf (Elt Ideal) ℓ) (ρ : Dev nD → PrngReg)

/-! ## The arguments at the inner boundaries -/

theorem exit0_arg1 (c : Dev nD) : W1 m ρ c (Proc.devRef .tc main_arg1) = m ((c : Thread nD τ).loc main_arg1) := W1_of_ne m ρ c main_arg1 (by decide)
theorem exit0_arg2 (c : Dev nD) : W1 m ρ c (Proc.devRef .tc main_arg2) = m ((c : Thread nD τ).loc main_arg2) := W1_of_ne m ρ c main_arg2 (by decide)
theorem exit0_arg3 (c : Dev nD) : W1 m ρ c (Proc.devRef .tc main_arg3) = m ((c : Thread nD τ).loc main_arg3) := W1_of_ne m ρ c main_arg3 (by decide)
theorem exit0_arg6 (c : Dev nD) : W1 m ρ c (Proc.devRef .tc main_arg6) = m ((c : Thread nD τ).loc main_arg6) := W1_of_ne m ρ c main_arg6 (by decide)
theorem exit0_arg7 (c : Dev nD) : W1 m ρ c (Proc.devRef .tc main_arg7) = m ((c : Thread nD τ).loc main_arg7) := W1_of_ne m ρ c main_arg7 (by decide)

theorem entry1_arg1 (c : Dev nD) : W2 m ρ c (Proc.devRef .tc main_arg1) = m ((c : Thread nD τ).loc main_arg1) := by
  refine Eq.trans ?_ (exit0_arg1 m ρ c)
  show StableHlo.after hostOps1 (W1 m ρ c) (Proc.devRef .tc main_arg1) = _
  after_results
theorem entry1_arg2 (c : Dev nD) : W2 m ρ c (Proc.devRef .tc main_arg2) = m ((c : Thread nD τ).loc main_arg2) := by
  refine Eq.trans ?_ (exit0_arg2 m ρ c)
  show StableHlo.after hostOps1 (W1 m ρ c) (Proc.devRef .tc main_arg2) = _
  after_results
theorem entry1_arg3 (c : Dev nD) : W2 m ρ c (Proc.devRef .tc main_arg3) = m ((c : Thread nD τ).loc main_arg3) := by
  refine Eq.trans ?_ (exit0_arg3 m ρ c)
  show StableHlo.after hostOps1 (W1 m ρ c) (Proc.devRef .tc main_arg3) = _
  after_results
theorem entry1_arg6 (c : Dev nD) : W2 m ρ c (Proc.devRef .tc main_arg6) = m ((c : Thread nD τ).loc main_arg6) := by
  refine Eq.trans ?_ (exit0_arg6 m ρ c)
  show StableHlo.after hostOps1 (W1 m ρ c) (Proc.devRef .tc main_arg6) = _
  after_results
theorem entry1_arg7 (c : Dev nD) : W2 m ρ c (Proc.devRef .tc main_arg7) = m ((c : Thread nD τ).loc main_arg7) := by
  refine Eq.trans ?_ (exit0_arg7 m ρ c)
  show StableHlo.after hostOps1 (W1 m ρ c) (Proc.devRef .tc main_arg7) = _
  after_results

theorem exit1_arg1 (c : Dev nD) : W3 m ρ c (Proc.devRef .tc main_arg1) = m ((c : Thread nD τ).loc main_arg1) :=
  (W3_of_ne m ρ c main_arg1 (by decide)).trans (entry1_arg1 m ρ c)
theorem exit1_arg2 (c : Dev nD) : W3 m ρ c (Proc.devRef .tc main_arg2) = m ((c : Thread nD τ).loc main_arg2) :=
  (W3_of_ne m ρ c main_arg2 (by decide)).trans (entry1_arg2 m ρ c)
theorem exit1_arg3 (c : Dev nD) : W3 m ρ c (Proc.devRef .tc main_arg3) = m ((c : Thread nD τ).loc main_arg3) :=
  (W3_of_ne m ρ c main_arg3 (by decide)).trans (entry1_arg3 m ρ c)

/-! ## The regions' output arrays at their exits -/

/-- Region 0 leaves the first dense layer of the launch contents. -/
theorem exit0_out (c : Dev nD) :
    W1 m ρ c (Proc.devRef .tc main_v0)
      = Layer.affine (m ((c : Thread nD τ).loc main_arg0)) (m ((c : Thread nD τ).loc main_arg4)) (m ((c : Thread nD τ).loc main_arg5)) :=
  (W1_arr m ρ c 3).trans (RegionArrays.linear_array (V0 m ρ) c)

/-- Region 1 leaves the second dense layer of the rectified contents it finds on entry. -/
theorem exit1_out (c : Dev nD) :
    W3 m ρ c (Proc.devRef .tc main_v14)
      = Layer.affine (Layer.relu (W2 m ρ c (Proc.devRef .tc main_v13))) (W2 m ρ c (Proc.devRef .tc main_arg6)) (W2 m ρ c (Proc.devRef .tc main_arg7)) :=
  (W3_arr m ρ c 3).trans (RegionArrays.relu_linear_array (V2 m ρ) c)

/-! ## The result -/

/-- The last boundary's contents at the result buffer: the network of the launch contents of the arguments. -/
theorem last_boundary (c : Dev nD) :
    W4 m ρ c (Proc.devRef .tc main_v27)
      = network (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [HostChain.second_stretch, exit1_out, HostChain.first_stretch, exit0_out, exit1_arg1, exit1_arg2, exit1_arg3,
    exit0_arg1, exit0_arg2, exit0_arg3, entry1_arg6, entry1_arg7]
  rfl

end Cert.KernelIdeal.Result

end
-- ==== Proof.RefValue.lean ====
/-
  The reference program's result as the same function of its eight arguments. Its host operations are, in order: a
  matrix product with the first weights plus the broadcast first bias — the affine layer; the sparse product; the
  entrywise maximum with a zero matrix — the rectifier; a matrix product with the second weights plus the broadcast
  second bias — the affine layer again; the sparse product again. Read at an index, the host's matrix product is the
  sum over the contracted coordinate, which is the affine layer's sum term by term.
-/
import proofs.«124054_j77644418777151_1_alg».proof.Proof.Gen.ReferenceIdeal.Read
import proofs.«124054_j77644418777151_1_alg».proof.Proof.Layer

set_option maxRecDepth 16384

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read Cert.Bridge

variable {F : FTy → Type} [FloatOps F]

/-- The sparse product of the edge list `(rows, cols, vals)` with the dense matrix `Z`, as the reference spells it. -/
def spmm (rows cols : IVec S1600000 32) (vals : FVec F S1600000 .f32) (Z : FVec F S100000x128 .f32) :
    FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 rows)
    (mulf (broadcastInDim S1600000x128 ![0, 1] bcast_S1600000x1_S1600000x128_0_1 (broadcastInDim S1600000x1 ![0] bcast_S1600000_S1600000x1_0 vals))
      (Host.gather gather_S100000x128_S1600000x1_S1600000x128_1_0_n_n_0_1_1128 Z
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols))))

/-- Two rounds of "dense layer, then sparse product", a rectifier between them. -/
def network (X : FVec Ideal S100000x128 .f32) (rows cols : IVec S1600000 32) (vals : FVec Ideal S1600000 .f32)
    (Wa : FVec Ideal S128x128 .f32) (ba : FVec Ideal S128 .f32) (Wb : FVec Ideal S128x128 .f32) (bb : FVec Ideal S128 .f32) :
    FVec Ideal S100000x128 .f32 :=
  spmm rows cols vals (Layer.affine (Layer.relu (spmm rows cols vals (Layer.affine X Wa ba))) Wb bb)

/-- The host's matrix product plus the broadcast bias is the affine layer: at entry (p, q) the contraction runs over
    the one contracted coordinate k, reading X at (p, k) and W at (k, q), and the twice-broadcast bias reads b at q. -/
theorem affine_stage (X : FVec Ideal S100000x128 .f32) (W : FVec Ideal S128x128 .f32) (b : FVec Ideal S128 .f32) :
    val_main_v3 (F := Ideal) X W b = Layer.affine X W b := by
  funext i
  have el : ∀ k : Fin 128, lidx_main_v0 i k = ix2 (i 0) k := fun k => funext fun a => by
    match a with | ⟨0, _⟩ => rfl | ⟨1, _⟩ => rfl
  have er : ∀ k : Fin 128, ridx_main_v0 i k = ix2 k (i 1) := fun k => funext fun a => by
    match a with | ⟨0, _⟩ => rfl | ⟨1, _⟩ => rfl
  have eb : idx_main_v1 (idx_main_v2 i) = ix1 (i 1) := funext fun a => by
    match a with | ⟨0, _⟩ => rfl
  rw [val_main_v3_apply, val_main_v0_apply, val_main_v2_apply, val_main_v1_apply]
  simp only [el, er, eb]
  rfl

/-- The entrywise maximum with the zero matrix is the rectifier. -/
theorem relu_stage (H : FVec Ideal S100000x128 .f32) :
    maximumf H (val_main_call0_v0 (F := Ideal)) = Layer.relu H := by
  funext j
  show max (H j) (val_main_call0_v0 (F := Ideal) j) = max (H j) (Ideal.ofBits .f32 0x00000000#32)
  rw [val_main_call0_v0_apply]
  rfl

/-- The reference's last stage is the network of its arguments. -/
theorem result_eq (x0 : FVec Ideal S100000x128 .f32) (x1 x2 : IVec S1600000 32) (x3 : FVec Ideal S1600000 .f32)
    (x4 : FVec Ideal S128x128 .f32) (x5 : FVec Ideal S128 .f32) (x6 : FVec Ideal S128x128 .f32) (x7 : FVec Ideal S128 .f32) :
    val_main_v34 (F := Ideal) x0 x1 x2 x3 x4 x5 x6 x7 = network x0 x1 x2 x3 x4 x5 x6 x7 := by
  show spmm x1 x2 x3 (val_main_v3 (F := Ideal)
    (maximumf (spmm x1 x2 x3 (val_main_v3 (F := Ideal) x0 x4 x5)) (val_main_call0_v0 (F := Ideal))) x6 x7) = _
  rw [affine_stage, relu_stage, affine_stage]
  rfl

end Cert.ReferenceIdeal.RefValue

end
-- ==== Proof.lean ====
/-
  Equivalence of a two-layer sparse graph network's kernel program with its plain array reference, over the extended
  reals. Both programs compute, from node features X, an edge list (rows, cols, vals) and two dense layers' parameters,

      out = H · (relu(H · (X·Wa + ba)) · Wb + bb),

  where H is the sparse matrix of the edge list and "H ·" is the gather / scale / scatter-add sparse product. The
  kernel program computes each dense layer in a pipelined region over twenty blocks of 5000 rows (the second region
  rectifying its operand block first) and each sparse product on the host; the reference computes everything on the
  host. The dense layers agree entry by entry — both are the same finite sum of products plus the bias, a change of
  float format being the identity on the extended reals — and the sparse product is the same function in both
  programs, applied to equal arguments; it is never opened. No finiteness of the inputs is used.
-/
import proofs.«124054_j77644418777151_1_alg».proof.Defs
import proofs.«124054_j77644418777151_1_alg».proof.Proof.Gen.Kernel
import proofs.«124054_j77644418777151_1_alg».proof.Proof.Gen.Kernel.Skeleton
import proofs.«124054_j77644418777151_1_alg».proof.Proof.Gen.Kernel.Launch
import proofs.«124054_j77644418777151_1_alg».proof.Proof.Gen.Kernel.Points
import proofs.«124054_j77644418777151_1_alg».proof.Proof.Gen.Kernel.Frame
import proofs.«124054_j77644418777151_1_alg».proof.Proof.Gen.KernelIdeal
import proofs.«124054_j77644418777151_1_alg».proof.Proof.Gen.KernelIdeal.Skeleton
import proofs.«124054_j77644418777151_1_alg».proof.Proof.Gen.KernelIdeal.Launch
import proofs.«124054_j77644418777151_1_alg».proof.Proof.Gen.KernelIdeal.Points
import proofs.«124054_j77644418777151_1_alg».proof.Proof.Gen.KernelIdeal.Frame
import proofs.«124054_j77644418777151_1_alg».proof.Proof.Gen.ReferenceIdeal
import proofs.«124054_j77644418777151_1_alg».proof.Proof.Gen.Pre_finite_inputs
import proofs.«124054_j77644418777151_1_alg».proof.Proof.Gen.ReferenceIdeal.Run
import proofs.«124054_j77644418777151_1_alg».proof.Proof.Gen.ReferenceIdeal.Read
import proofs.«124054_j77644418777151_1_alg».proof.Proof.KernelRun
import proofs.«124054_j77644418777151_1_alg».proof.Proof.KernelValue
import proofs.«124054_j77644418777151_1_alg».proof.Proof.RefValue
import Idealize.ShloMosaic.Adequacy
import Idealize.ShloMosaic.Init

set_option maxRecDepth 16384

noncomputable section

namespace Cert.Proof

open Idealize.ShloMosaic Idealize.SL.Sem

/-- The two programs spell the sparse product with the same dimension numbers and the same broadcasts: it is one
    function. -/
theorem spmm_same (rows cols : IVec Cert.KernelIdeal.S1600000 32) (vals : FVec Ideal Cert.KernelIdeal.S1600000 .f32)
    (Z : FVec Ideal Cert.KernelIdeal.S100000x128 .f32) :
    Cert.ReferenceIdeal.RefValue.spmm (F := Ideal) rows cols vals Z = Cert.KernelIdeal.HostChain.spmm (F := Ideal) rows cols vals Z := rfl

/-- Hence the network, stated once per program, is one function. -/
theorem network_same (X : FVec Ideal Cert.KernelIdeal.S100000x128 .f32) (rows cols : IVec Cert.KernelIdeal.S1600000 32)
    (vals : FVec Ideal Cert.KernelIdeal.S1600000 .f32) (Wa : FVec Ideal Cert.KernelIdeal.S128x128 .f32) (ba : FVec Ideal Cert.KernelIdeal.S128 .f32)
    (Wb : FVec Ideal Cert.KernelIdeal.S128x128 .f32) (bb : FVec Ideal Cert.KernelIdeal.S128 .f32) :
    Cert.ReferenceIdeal.RefValue.network X rows cols vals Wa ba Wb bb = Cert.KernelIdeal.Result.network X rows cols vals Wa ba Wb bb := by
  unfold Cert.ReferenceIdeal.RefValue.network Cert.KernelIdeal.Result.network
  rw [spmm_same, spmm_same]

theorem frame_kernel : Cert.frame_Kernel := fun m ρ _ => Cert.Kernel.Gen.frame m ρ
theorem frame_kernelIdeal : Cert.frame_KernelIdeal := fun m ρ _ => Cert.KernelIdeal.Gen.frame m ρ
/-- The reference has no region: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network of the arguments in their result buffer: the kernel program by its run and the
    last boundary's contents, the reference by its run and its last stage; the arguments agree. -/
theorem algebraic : Cert.algebraic_KernelIdeal_ReferenceIdeal := by
  intro m ρ m' ρ' _ hagree
  refine ⟨fun c => Cert.KernelIdeal.Result.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Result.last_boundary m ρ c), (h c).2⟩)
      (Cert.KernelIdeal.RunResult.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [h0, h1, h2, h3, h4, h5, h6, h7]
    exact ((Cert.ReferenceIdeal.Read.val_main_v34_eq _ _ _ _ _ _ _ _).trans
      (Cert.ReferenceIdeal.RefValue.result_eq _ _ _ _ _ _ _ _)).trans (network_same _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
